-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x3 : Shape := ⟨3, ![4096, 4096, 3]⟩
abbrev S4096x4096x16 : Shape := ⟨3, ![4096, 4096, 16]⟩
abbrev S_ : Shape := ⟨0, ![]⟩

class Facts : Prop where
  bcast_S_S4096x4096x3 : S_.BroadcastsInDim S4096x4096x3 (![] : Fin 0 → Fin S4096x4096x3.rank)
  reducesTo_S4096x4096x3_S_d0_1_2 : S4096x4096x3.ReducesTo [0, 1, 2] S_
  h_S_ : 0 < S_.numel
  bcast_S_S4096x4096x16 : S_.BroadcastsInDim S4096x4096x16 (![] : Fin 0 → Fin S4096x4096x16.rank)
  reducesTo_S4096x4096x16_S_d0_1_2 : S4096x4096x16.ReducesTo [0, 1, 2] S_

variable [Facts]

def fn {F : FTy → Type} [FloatOps F] (main_arg0 : FVec F S4096x4096x3 .f32) (main_arg1 : FVec F S4096x4096x16 .f32) : IVec S_ 1 :=
  let main_v0 : FVec F S4096x4096x3 .f32 := Host.absf main_arg0
  let main_cst : FVec F S_ .f32 := constant S_ .f32 0x7F800000#32
  let main_v1 : FVec F S4096x4096x3 .f32 := broadcastInDim S4096x4096x3 ![] bcast_S_S4096x4096x3 main_cst
  let main_v2 : IVec S4096x4096x3 1 := cmpf .olt main_v0 main_v1
  let main_c : IVec S_ 1 := constantI S_ 1 1#1
  let main_v3 : IVec S_ 1 := (fun x v => Host.reduce IntOp.andi x v reducesTo_S4096x4096x3_S_d0_1_2 h_S_) main_v2 main_c
  let main_v4 : FVec F S4096x4096x16 .f32 := Host.absf main_arg1
  let main_cst_0 : FVec F S_ .f32 := constant S_ .f32 0x7F800000#32
  let main_v5 : FVec F S4096x4096x16 .f32 := broadcastInDim S4096x4096x16 ![] bcast_S_S4096x4096x16 main_cst_0
  let main_v6 : IVec S4096x4096x16 1 := cmpf .olt main_v4 main_v5
  let main_c_1 : IVec S_ 1 := constantI S_ 1 1#1
  let main_v7 : IVec S_ 1 := (fun x v => Host.reduce IntOp.andi x v reducesTo_S4096x4096x16_S_d0_1_2 h_S_) main_v6 main_c_1
  let main_v8 : IVec S_ 1 := andi main_v3 main_v7
  main_v8
-- ==== Kernel.lean ====
abbrev S4096x4096x3 : Shape := ⟨3, ![4096, 4096, 3]⟩
abbrev S4096x4096x16 : Shape := ⟨3, ![4096, 4096, 16]⟩
abbrev S4096x4096 : Shape := ⟨2, ![4096, 4096]⟩
abbrev S512x4096 : Shape := ⟨2, ![512, 4096]⟩
abbrev S2x512x4096 : Shape := ⟨3, ![2, 512, 4096]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S512x4096x1 : Shape := ⟨3, ![512, 4096, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x4096x3, .f32⟩
  | .hbm, ⟨1, _⟩ => ⟨S4096x4096x16, .f32⟩
  | .hbm, ⟨2, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S2x512x4096, .f32⟩
  | .local _ .vmem, ⟨3, _⟩ => ⟨S2x512x4096, .f32⟩
  | _, _ => ⟨S4096x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_21 : BitVec 32 := 0#32
  c0_i32_21
def k0_off1 (i : grid0.Coords) : Fin 1 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off2 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  ![v12.toNat, 0, 0]
def k0_cond2 (i : grid0.Coords) : BitVec 1 :=
  let arg0 : BitVec 32 := BitVec.ofNat 32 (i 0).val
  let c1_i32_14 : BitVec 32 := 1#32
  let v25 : BitVec 32 := Scalar.addi arg0 c1_i32_14
  let c8_i32 : BitVec 32 := 8#32
  let v26 : BitVec 1 := Scalar.cmpi .slt v25 c8_i32
  let v27 : BitVec 32 := Scalar.extui v26
  let c0_i32_15 : BitVec 32 := 0#32
  let v28 : BitVec 1 := Scalar.cmpi .ne v27 c0_i32_15
  v28

def k0_mult2 (i : grid0.Coords) : BitVec 32 :=
  let arg0 : BitVec 32 := BitVec.ofNat 32 (i 0).val
  let c1_i32_21 : BitVec 32 := 1#32
  let v37 : BitVec 32 := Scalar.addi arg0 c1_i32_21
  let c512_i32 : BitVec 32 := 512#32
  let v39 : BitVec 32 := Scalar.muli v37 c512_i32
  v39
def k0_off3 (i : grid0.Coords) : Fin 1 → Nat :=
  let c1_i32_22 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v38 : BitVec 32 := Scalar.subi c1_i32_22 v12
  ![v38.toNat]
def k0_off4 (i : grid0.Coords) : Fin 3 → Nat :=
  let c1_i32_22 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v38 : BitVec 32 := Scalar.subi c1_i32_22 v12
  let c0_i32_24 : BitVec 32 := 0#32
  let c0_i32_25 : BitVec 32 := 0#32
  ![v38.toNat, 0, 0]
def k0_off5 (i : grid0.Coords) : Fin 3 → Nat :=
  let arg0 : BitVec 32 := BitVec.ofNat 32 (i 0).val
  let c1_i32_21 : BitVec 32 := 1#32
  let v37 : BitVec 32 := Scalar.addi arg0 c1_i32_21
  let c512_i32 : BitVec 32 := 512#32
  let v39 : BitVec 32 := Scalar.muli v37 c512_i32
  let v40 : BitVec 32 := v39
  let c0_i32_26 : BitVec 32 := 0#32
  let c0_i32_23 : BitVec 32 := 0#32
  ![v40.toNat, 0, 0]
def k0_off6 (i : grid0.Coords) : Fin 3 → Nat :=
  let arg0 : BitVec 32 := BitVec.ofNat 32 (i 0).val
  let c1_i32_21 : BitVec 32 := 1#32
  let v37 : BitVec 32 := Scalar.addi arg0 c1_i32_21
  let c512_i32 : BitVec 32 := 512#32
  let v39 : BitVec 32 := Scalar.muli v37 c512_i32
  let v40 : BitVec 32 := v39
  let c0_i32_30 : BitVec 32 := 0#32
  let c15_i32_27 : BitVec 32 := 15#32
  ![v40.toNat, 0, 15]
def k0_off7 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v29 : Index := Scalar.indexCast v12
  let c0 : Index := 0#32
  let c0_16 : Index := 0#32
  ![v29.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S2_S1_0 : ∀ a, (![0] : Fin 1 → Nat) a + S1.size a ≤ S2.size a
  squeezes_S1_S_ : S1.Squeezes S_
  inb_S2x512x4096_S1x512x4096_0_0_0 : ∀ a, (![0, 0, 0] : Fin 3 → Nat) a + S1x512x4096.size a ≤ S2x512x4096.size a
  squeezes_S1x512x4096_S512x4096 : S1x512x4096.Squeezes S512x4096
  inb_S4096x4096x3_S512x4096x1_0_0_0 : ∀ a, (![0, 0, 0] : Fin 3 → Nat) a + S512x4096x1.size a ≤ S4096x4096x3.size a
  squeezes_S512x4096x1_S512x4096 : S512x4096x1.Squeezes S512x4096
  inb_S4096x4096x16_S512x4096x1_0_0_15 : ∀ a, (![0, 0, 15] : Fin 3 → Nat) a + S512x4096x1.size a ≤ S4096x4096x16.size a
  h_S1x512x4096 : 0 < S1x512x4096.numel
  shapeCasts_S1x512x4096_S512x4096 : S1x512x4096.ShapeCasts S512x4096
  inb_S512x4096_S512x4096_0_0 : ∀ a, (![0, 0] : Fin 2 → Nat) a + S512x4096.size a ≤ S512x4096.size a
  h_S512x4096 : 0 < S512x4096.numel
  hcc0_scratch2 : 2 + S2.numel ≤ 6
  hcc0_scratch3 : 4 + S2.numel ≤ 6
  hrank0 : 0 < grid0.rank
  k0_mult1_dvd : ∀ i : grid0.Coords, ∀ (k0_h1 : k0_cond1 i = 1#1), 512 ∣ k0_mult1.toNat
  k0_off1_inb : ∀ i : grid0.Coords, ∀ a, (k0_off1 i) a + S1.size a ≤ S2.size a
  k0_off2_inb : ∀ i : grid0.Coords, ∀ a, (k0_off2 i) a + S1x512x4096.size a ≤ S2x512x4096.size a
  k0_mult2_dvd : ∀ i : grid0.Coords, ∀ (k0_h2 : k0_cond2 i = 1#1), 512 ∣ (k0_mult2 i).toNat
  k0_off3_inb : ∀ i : grid0.Coords, ∀ (k0_h2 : k0_cond2 i = 1#1), ∀ a, (k0_off3 i) a + S1.size a ≤ S2.size a
  k0_off4_inb : ∀ i : grid0.Coords, ∀ (k0_h2 : k0_cond2 i = 1#1), ∀ a, (k0_off4 i) a + S1x512x4096.size a ≤ S2x512x4096.size a
  k0_off5_inb : ∀ i : grid0.Coords, ∀ (k0_h2 : k0_cond2 i = 1#1), ∀ a, (k0_off5 i) a + S512x4096x1.size a ≤ S4096x4096x3.size a
  k0_off6_inb : ∀ i : grid0.Coords, ∀ (k0_h2 : k0_cond2 i = 1#1), ∀ a, (k0_off6 i) a + S512x4096x1.size a ≤ S4096x4096x16.size a
  k0_off7_inb : ∀ i : grid0.Coords, ∀ a, (k0_off7 i) a + S1x512x4096.size a ≤ S2x512x4096.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S512x4096.size a ≤ S4096x4096.size a
  hwx0_0 : ∀ i : grid0.Coords, EltTy.bits .f32 = 32 ∨ (Rect.block (s := S4096x4096) S512x4096.size (cc0_transform_2 i) (hinb0_0 i)).WholeWords (EltTy.packing .f32)

variable [Facts₀]

abbrev cc0_scratch2 : DmaSems sig S2 := SemArray.consecutive 2 S2 hcc0_scratch2
abbrev cc0_scratch3 : DmaSems sig S2 := SemArray.consecutive 4 S2 hcc0_scratch3

abbrev win0_0 : Pipeline.Window sig grid0 :=
  Pipeline.Window.ofSpec (Memref.whole main_v0) S512x4096.size cc0_transform_2 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096x4096x3 : Shape := ⟨3, ![4096, 4096, 3]⟩
abbrev S4096x4096x16 : Shape := ⟨3, ![4096, 4096, 16]⟩
abbrev S4096x4096x1 : Shape := ⟨3, ![4096, 4096, 1]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096x3, .f32⟩
  | .hbm, ⟨1, _⟩ => ⟨S4096x4096x16, .f32⟩
  | .hbm, ⟨2, _⟩ => ⟨S4096x4096x1, .f32⟩
  | .hbm, ⟨3, _⟩ => ⟨S4096x4096, .f32⟩
  | .hbm, ⟨4, _⟩ => ⟨S4096x4096x1, .f32⟩
  | .hbm, ⟨5, _⟩ => ⟨S4096x4096, .f32⟩
  | .hbm, ⟨6, _⟩ => ⟨S4096x4096, .f32⟩
  | _, _ => ⟨S4096x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  slices_S4096x4096x16_S4096x4096x1_0_0_15 : S4096x4096x16.Slices ![0, 0, 15] S4096x4096x1
  shapeCasts_S4096x4096x1_S4096x4096 : S4096x4096x1.ShapeCasts S4096x4096
  slices_S4096x4096x3_S4096x4096x1_0_0_0 : S4096x4096x3.Slices ![0, 0, 0] S4096x4096x1

variable [Facts₀]

class Facts : Prop extends Facts₀ where

variable [Facts]
-- ==== Proof.Plane.lean ====
/-
  The one plane both programs compute. From an image `x : [4096, 4096, 3]` and weights `w : [4096, 4096, 16]` the
  result is the `[4096, 4096]` array whose entry `(r, q)` is the product of the image's FIRST channel at `(r, q)`
  and the weights' LAST channel at `(r, q)`. The kernel multiplies image by weight, the reference weight by image;
  on the extended reals multiplication is commutative at every pair of values, infinite ones included, so the two
  arrangements are one function and no finiteness of the inputs is used.
-/
import Idealize.ShloMosaic.PureOps.Ideal
import Idealize.ShloMosaic.Lib.ValueIdx

noncomputable section

namespace Cert.Proof.Plane

open Idealize.ShloMosaic Idealize.ShloMosaic.ValueIdx

/-- The image's shape, the weights' shape, the result's shape. -/
abbrev Img : Shape := ⟨3, ![4096, 4096, 3]⟩
abbrev Wts : Shape := ⟨3, ![4096, 4096, 16]⟩
abbrev Out : Shape := ⟨2, ![4096, 4096]⟩

/-- Position `(r, q)` in the image's first channel. -/
abbrev inFirst (r q : Fin 4096) : Img.Idx := ix3 r q (0 : Fin 3)
/-- Position `(r, q)` in the weights' last channel. -/
abbrev inLast (r q : Fin 4096) : Wts.Idx := ix3 r q (15 : Fin 16)

variable {F : FTy → Type} [FloatOps F]

/-- Image times weight, entry by entry: the order in which the kernel multiplies. -/
def imageByWeight (x : Vec F Img .f32) (w : Vec F Wts .f32) : Vec F Out .f32 :=
  fun i => FloatOps.mulf (x (inFirst (i 0) (i 1))) (w (inLast (i 0) (i 1)))

/-- Weight times image, entry by entry: the order in which the reference multiplies. -/
def weightByImage (x : Vec F Img .f32) (w : Vec F Wts .f32) : Vec F Out .f32 :=
  fun i => FloatOps.mulf (w (inLast (i 0) (i 1))) (x (inFirst (i 0) (i 1)))

/-- On the extended reals the two orders give the same plane: `a * b = b * a` for all `a b`, with no side condition. -/
theorem weightByImage_eq (x : Vec Ideal Img .f32) (w : Vec Ideal Wts .f32) :
    weightByImage x w = imageByWeight x w :=
  funext fun i => by
    show (w (inLast (i 0) (i 1)) : EReal) * x (inFirst (i 0) (i 1)) = x (inFirst (i 0) (i 1)) * w (inLast (i 0) (i 1))
    exact mul_comm _ _

end Cert.Proof.Plane

end
-- ==== Proof.RefPlane.lean ====
/-
  The reference's result is the plane, weight times image. Its five host operations are two channel selections
  (a slice of width one along the last axis, then a reshape dropping that axis) and one entrywise product. A slice
  at offsets `(0, 0, k)` reads position `(r, q, u)` from `(r, q, k + u)`; the reshape `[4096, 4096, 1] → [4096, 4096]`
  keeps row-major order, so entry `(r, q)` comes from `(r, q, 0)`. Composed: entry `(r, q)` of the first operand is
  the weights at `(r, q, 15)`, of the second the image at `(r, q, 0)`.
-/
import proofs.«146540_j6073083757041_2_alg».proof.Proof.Gen.ReferenceIdeal.Read
import proofs.«146540_j6073083757041_2_alg».proof.Proof.Plane

noncomputable section

namespace Cert.Proof.RefPlane

open Cert.ReferenceIdeal Cert.ReferenceIdeal.Read
open Idealize.ShloMosaic Idealize.ShloMosaic.ValueIdx
open Cert.Proof.Plane

/-- Through the reshape and the slice at channel 15, entry `i` is read at `(i 0, i 1, 15)`. -/
theorem lastChannel_idx (i : S4096x4096.Idx) : idx_main_v0 (idx_main_v1 i) = inLast (i 0) (i 1) := by
  have h0 : (i 0).val < 4096 := (i 0).isLt
  have h1 : (i 1).val < 4096 := (i 1).isLt
  funext a
  apply Fin.ext
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- Through the reshape and the slice at channel 0, entry `i` is read at `(i 0, i 1, 0)`. -/
theorem firstChannel_idx (i : S4096x4096.Idx) : idx_main_v2 (idx_main_v3 i) = inFirst (i 0) (i 1) := by
  have h0 : (i 0).val < 4096 := (i 0).isLt
  have h1 : (i 1).val < 4096 := (i 1).isLt
  funext a
  apply Fin.ext
  match a with
  | ⟨0, _⟩ => show ((i 0).val * 4096 + (i 1).val) / 4096 = (i 0).val; omega
  | ⟨1, _⟩ => show ((i 0).val * 4096 + (i 1).val) / 1 % 4096 = (i 1).val; omega
  | ⟨2, _⟩ => rfl

/-- The reference's last stage is the plane in the reference's order of multiplication. -/
theorem result_eq {F : FTy → Type} [FloatOps F] (x0 : Vec F S4096x4096x3 .f32) (x1 : Vec F S4096x4096x16 .f32) :
    val_main_v4 (F := F) x0 x1 = weightByImage x0 x1 := by
  funext i
  rw [val_main_v4_apply, val_main_v1_apply, val_main_v0_apply, val_main_v3_apply, val_main_v2_apply,
    lastChannel_idx, firstChannel_idx]
  rfl

end Cert.Proof.RefPlane

end
-- ==== Proof.RingRead.lean ====
/-
  What the body's two loads see. Each argument array stays in HBM; the body copies one `[512, 4096]` block of one
  channel at a time into a slot of a `[2, 512, 4096]` scratch buffer and later loads the slot's row as a
  `[1, 512, 4096]` vector. Two facts of index arithmetic are needed, and nothing else:

  * the row `s` of the scratch buffer, cut out as `[1, 512, 4096]` and squeezed to `[512, 4096]`, keeps position
    `(r, q)` at `(s, r, q)` — so a load of that row, read at `(0, r, q)`, reads what the slot holds at `(r, q)`;
  * the block of rows `512 b … 512 b + 511` of channel `k` of an argument array, cut out as `[512, 4096, 1]` and
    squeezed to `[512, 4096]`, keeps position `(r, q)` at `(512 b + r, q, k)`.

  Both squeezes keep row-major order, which is all the library's re-indexing is determined by.
-/
import proofs.«146540_j6073083757041_2_alg».proof.Proof.Gen.KernelIdeal.Frame
import Idealize.ShloMosaic.Lib.Pipeline.Value

set_option maxRecDepth 16384

noncomputable section

namespace Cert.Proof.RingRead

open Cert.KernelIdeal Cert.KernelIdeal.Gen
open Idealize.ShloMosaic Idealize.ShloMosaic.TcCoe Idealize.SL.Sem

variable {F : FTy → Type} [FloatOps F]

/-! ## A unit axis in front, a unit axis behind -/

/-- A position of a `[1, 512, 4096]` vector without its leading coordinate (which can only be `0`). -/
abbrev behind (y : S1x512x4096.Idx) : S512x4096.Idx := fun i => (y i.succ).cast rfl

/-- A position of a `[512, 4096]` block with the coordinate `0` put in front. -/
abbrev ahead (z : S512x4096.Idx) : S1x512x4096.Idx := fun a => match a with
  | ⟨0, _⟩ => ⟨0, Nat.one_pos⟩
  | ⟨1, _⟩ => z 0
  | ⟨2, _⟩ => z 1

/-- A position of a `[512, 4096]` block with the coordinate `0` put last. -/
abbrev channelled (z : S512x4096.Idx) : S512x4096x1.Idx := fun a => match a with
  | ⟨0, _⟩ => z 0
  | ⟨1, _⟩ => z 1
  | ⟨2, _⟩ => ⟨0, Nat.one_pos⟩

theorem behind_ahead (z : S512x4096.Idx) : behind (ahead z) = z := by
  funext i; match i with | ⟨0, _⟩ => rfl | ⟨1, _⟩ => rfl

/-- Squeezing the leading unit axis sends `(r, q)` to the position it came from: row-major, `(0·512 + r)·4096 + q`. -/
theorem unsqueeze_behind (h : S512x4096.numel = S1x512x4096.numel) (y : S1x512x4096.Idx) :
    Shape.reshapeEquiv h (behind y) = y :=
  Shape.reshapeEquiv_eq_of_rowMajor h (by
    rw [Shape.rowMajor_val_three, Shape.rowMajor_val_two]
    have h0 : (y 0).val < 1 := (y 0).isLt
    show ((y 0).val * 512 + (y 1).val) * 4096 + (y 2).val = (y 1).val * 4096 + (y 2).val
    omega)

/-- Squeezing the trailing unit axis sends `(r, q)` to `(r, q, 0)`: row-major, `(r·4096 + q)·1 + 0`. -/
theorem squeeze_channelled (h : S512x4096.numel = S512x4096x1.numel) (z : S512x4096.Idx) :
    Shape.reshapeEquiv h z = channelled z :=
  Shape.reshapeEquiv_eq_of_rowMajor h (by
    rw [Shape.rowMajor_val_three, Shape.rowMajor_val_two]
    show ((z 0).val * 4096 + (z 1).val) * 1 + 0 = (z 0).val * 4096 + (z 1).val
    omega)

/-- A `[1, 512, 4096]` vector that ignores its leading coordinate, cast to `[512, 4096]`, is the function it was made of. -/
theorem cast_behind {α : Type} (g : S512x4096.Idx → α) (h : S1x512x4096.ShapeCasts S512x4096) :
    shapeCast S512x4096 (fun y => g (behind y)) h = g := by
  funext z
  refine (shapeCast_apply (fun y => g (behind y)) h z (ahead z) ?_).trans (congrArg g (behind_ahead z))
  rw [Shape.rowMajor_val_three, Shape.rowMajor_val_two]
  show (0 * 512 + (z 0).val) * 4096 + (z 1).val = (z 0).val * 4096 + (z 1).val
  omega

/-! ## A slot's row, loaded through the whole scratch buffer -/

/-- The row `s` of the first scratch buffer places `(0, r, q)` where slot `s` keeps `(r, q)`. -/
theorem slot0_row (s : Fin 2) (inb) (y : S1x512x4096.Idx) :
    (Rect.unit (s := S2x512x4096) ![s.val, 0, 0] S1x512x4096.size inb).toLoadRect.idx y = (rslot0_0 s).view.emb (behind y) := by
  show _ = (Rect.unit (s := S2x512x4096) ![s.val, 0, 0] S1x512x4096.size (inb_slot0_0 s)).emb
    (Shape.reshapeEquiv (Shape.Squeezes.numel_eq squeezes_S1x512x4096_S512x4096) (behind y))
  rw [unsqueeze_behind]
  rfl

/-- The same for the second scratch buffer. -/
theorem slot1_row (s : Fin 2) (inb) (y : S1x512x4096.Idx) :
    (Rect.unit (s := S2x512x4096) ![s.val, 0, 0] S1x512x4096.size inb).toLoadRect.idx y = (rslot0_1 s).view.emb (behind y) := by
  show _ = (Rect.unit (s := S2x512x4096) ![s.val, 0, 0] S1x512x4096.size (inb_slot0_1 s)).emb
    (Shape.reshapeEquiv (Shape.Squeezes.numel_eq squeezes_S1x512x4096_S512x4096) (behind y))
  rw [unsqueeze_behind]
  rfl

/-- A load through the whole first scratch buffer reads its contents at the rectangle's positions. -/
theorem whole0_readAt (r : LoadRect S2x512x4096) (f : (View.whole cc0_scratch0).ty.Contents (Elt F)) (y : r.shape.Idx) :
    scM0_0.view.readAt (Elt F) r f y = f (r.idx y) := rfl

/-- The same for the second scratch buffer. -/
theorem whole1_readAt (r : LoadRect S2x512x4096) (f : (View.whole cc0_scratch1).ty.Contents (Elt F)) (y : r.shape.Idx) :
    scM0_1.view.readAt (Elt F) r f y = f (r.idx y) := rfl

/-- A load of row `s` through the whole first scratch buffer, whatever the buffer holds, reads what slot `s` holds,
    behind the unit axis. -/
theorem slot0_read (s : Fin 2) (G : (rslot0_0 s).view.ty.Contents (Elt F)) (off : Fin 3 → Nat) (inb) (hoff : off = ![s.val, 0, 0])
    (y : S1x512x4096.Idx) :
    scM0_0.view.readAt (Elt F) (Rect.unit (s := S2x512x4096) off S1x512x4096.size inb).toLoadRect G y
      = (rslot0_0 s).view.read (Elt F) G (behind y) := by
  subst hoff
  refine (whole0_readAt (Rect.unit (s := S2x512x4096) ![s.val, 0, 0] S1x512x4096.size inb).toLoadRect G y).trans ?_
  rw [slot0_row]
  rfl

/-- The same for the second scratch buffer. -/
theorem slot1_read (s : Fin 2) (G : (rslot0_1 s).view.ty.Contents (Elt F)) (off : Fin 3 → Nat) (inb) (hoff : off = ![s.val, 0, 0])
    (y : S1x512x4096.Idx) :
    scM0_1.view.readAt (Elt F) (Rect.unit (s := S2x512x4096) off S1x512x4096.size inb).toLoadRect G y
      = (rslot0_1 s).view.read (Elt F) G (behind y) := by
  subst hoff
  refine (whole1_readAt (Rect.unit (s := S2x512x4096) ![s.val, 0, 0] S1x512x4096.size inb).toLoadRect G y).trans ?_
  rw [slot1_row]
  rfl

/-! ## Where a block of one channel sits in its argument array -/

/-- Block `b` of the image's first channel keeps `(r, q)` at `(512 b + r, q, 0)`. -/
theorem image_block_at (b : Fin 8) (z : S512x4096.Idx) (a : Fin 3) :
    ((srcB0_0 b).view.emb z a).val = (![512 * b.val, 0, 0] : Fin 3 → Nat) a + (channelled z a).val := by
  show (![512 * b.val, 0, 0] : Fin 3 → Nat) a
      + 1 * ((Shape.reshapeEquiv (Shape.Squeezes.numel_eq squeezes_S512x4096x1_S512x4096) z) a).val = _
  rw [squeeze_channelled]
  omega

/-- Block `b` of the weights' last channel keeps `(r, q)` at `(512 b + r, q, 15)`. -/
theorem weight_block_at (b : Fin 8) (z : S512x4096.Idx) (a : Fin 3) :
    ((srcB0_1 b).view.emb z a).val = (![512 * b.val, 0, 15] : Fin 3 → Nat) a + (channelled z a).val := by
  show (![512 * b.val, 0, 15] : Fin 3 → Nat) a
      + 1 * ((Shape.reshapeEquiv (Shape.Squeezes.numel_eq squeezes_S512x4096x1_S512x4096) z) a).val = _
  rw [squeeze_channelled]
  omega

end Cert.Proof.RingRead

end
-- ==== Proof.BodyBlock.lean ====
/-
  What the body stores at a grid point. The body waits for the two transfers into slot `t mod 2` (block `t` of the
  image's first channel into the first scratch buffer, block `t` of the weights' last channel into the second), starts
  the transfers of block `t + 1` into the other slot when there is one, loads slot `t mod 2` of each buffer as a
  `[1, 512, 4096]` vector, drops the unit axis and stores the product. Point `0` also starts block `0` itself; point `7`
  starts nothing. In all three cases the stored `[512, 4096]` block is the same function of the argument arrays:
  at `(r, q)`, image `(512 t + r, q, 0)` times weights `(512 t + r, q, 15)`. What a slot holds when it is read is the
  transferred block written over the slot whole, so its earlier contents play no part.
-/
import proofs.«146540_j6073083757041_2_alg».proof.Proof.RingRead

set_option maxRecDepth 16384

noncomputable section

namespace Cert.Proof.BodyBlock

open Cert.KernelIdeal Cert.KernelIdeal.Gen Cert.Proof.RingRead
open Idealize.ShloMosaic Idealize.ShloMosaic.TcCoe Idealize.SL.Sem Idealize.ShloMosaic.Tactic

variable {F : FTy → Type} [FloatOps F]
variable (m : (ℓ : Loc nD τ sig) → Buf (Elt F) ℓ)

theorem zeros2 : (![0, 0] : Fin 2 → Nat) = fun _ => 0 := funext fun a => by fin_cases a <;> rfl

section Stored
variable (c : Dev nD) (t : Fin cfg0.N) (W0 : HbBuf0 (F := F) c hbM0_0) (W1 : HbBuf0 (F := F) c hbM0_1)

/-- The block point `t` stores, as the body computes it: the product of the two loaded rows, each row reading block
    `t` of its channel behind the unit axis. -/
def stored : Vec F S512x4096 .f32 :=
  k0_pay1 (k0_pay2 (fun y => ReadAs.same.apply ((srcB0_0 (Ring.bk 8 t.val)).view.read (Elt F) W0) (behind y)))
    (fun y => ReadAs.same.apply ((srcB0_1 (Ring.bk 8 t.val)).view.read (Elt F) W1) (behind y))

/-- Entry by entry: the unit axes cancel and the product is taken at the two blocks' own positions in their arrays. -/
theorem stored_apply (z : S512x4096.Idx) :
    stored c t W0 W1 z
      = FloatOps.mulf (W0 ((srcB0_0 (Ring.bk 8 t.val)).view.emb z)) (W1 ((srcB0_1 (Ring.bk 8 t.val)).view.emb z)) := by
  unfold stored k0_pay1 k0_pay2
  dsimp only
  rw [cast_behind (ReadAs.same.apply ((srcB0_0 (Ring.bk 8 t.val)).view.read (Elt F) W0)),
    cast_behind (ReadAs.same.apply ((srcB0_1 (Ring.bk 8 t.val)).view.read (Elt F) W1))]
  rfl

variable (a3 : Memref sig .tc .vmem S512x4096 .f32) (h3 : a3.IsWhole)

/-- Point `0`: the body starts block `0`, waits for it, starts block `1`, and stores the product. -/
theorem first_point (hc0 : cond0_0 (grid0.coords t)) (hc1 : cond0_1 (grid0.coords t)) :
    out0_A_0 c t a3 h3 hc0 hc1 W0 W1 = stored c t W0 W1 := by
  unfold out0_A_0
  rw [View.read_writes_eq_canon _ _ _ (cover0_A_0 c t a3 h3 hc0 hc1 W0 W1)]
  unfold kernelRun0_A
  dsimp only
  sl_unfold_words
  rw [View.canon_unit_zero zeros2]
  unfold stored
  refine congrArg₂ k0_pay1 (congrArg k0_pay2 (funext fun y => ?_)) (funext fun y => ?_)
  · exact (slot0_read _ _ _ _ (coff0_0_10 t) y).trans (congrFun (View.read_writes_whole _ _ _) _)
  · exact (slot1_read _ _ _ _ (coff0_1_10 t) y).trans (congrFun (View.read_writes_whole _ _ _) _)

/-- Points `1` to `6`: the body waits for block `t`, starts block `t + 1`, and stores the product. -/
theorem middle_point (hc0 : ¬cond0_0 (grid0.coords t)) (hc1 : cond0_1 (grid0.coords t)) :
    out0_B_0 c t a3 h3 hc0 hc1 W0 W1 = stored c t W0 W1 := by
  unfold out0_B_0
  rw [View.read_writes_eq_canon _ _ _ (cover0_B_0 c t a3 h3 hc0 hc1 W0 W1)]
  unfold kernelRun0_B
  dsimp only
  sl_unfold_words
  rw [View.canon_unit_zero zeros2]
  unfold stored
  refine congrArg₂ k0_pay1 (congrArg k0_pay2 (funext fun y => ?_)) (funext fun y => ?_)
  · exact (slot0_read _ _ _ _ (coff0_0_10 t) y).trans (congrFun (View.read_writes_whole _ _ _) _)
  · exact (slot1_read _ _ _ _ (coff0_1_10 t) y).trans (congrFun (View.read_writes_whole _ _ _) _)

/-- Point `7`: the body waits for block `7`, starts nothing, and stores the product. -/
theorem last_point (hc0 : ¬cond0_0 (grid0.coords t)) (hc1 : ¬cond0_1 (grid0.coords t)) :
    out0_C_0 c t a3 h3 hc0 hc1 W0 W1 = stored c t W0 W1 := by
  unfold out0_C_0
  rw [View.read_writes_eq_canon _ _ _ (cover0_C_0 c t a3 h3 hc0 hc1 W0 W1)]
  unfold kernelRun0_C
  dsimp only
  sl_unfold_words
  rw [View.canon_unit_zero zeros2]
  unfold stored
  refine congrArg₂ k0_pay1 (congrArg k0_pay2 (funext fun y => ?_)) (funext fun y => ?_)
  · exact (slot0_read _ _ _ _ (coff0_0_10 t) y).trans (congrFun (View.read_writes_whole _ _ _) _)
  · exact (slot1_read _ _ _ _ (coff0_1_10 t) y).trans (congrFun (View.read_writes_whole _ _ _) _)

end Stored

/-- So after the body at point `t` the output's staging buffer holds that block, whichever case `t` falls in. -/
theorem outsAt_eq (c : Dev nD) (t : Fin cfg0.N) :
    outsAt0 m c t.val t.isLt = stored c t (V m c main_arg0) (V m c main_arg1) := by
  have hN : t.val < 8 := lt_of_lt_of_eq t.isLt (show cfg0.N = 8 from N_0)
  by_cases h0 : t.val % 8 = 0
  · by_cases h1 : t.val < 7
    · rw [outsAt0_A m c t h0 h1]
      exact first_point c t (V m c main_arg0) (V m c main_arg1) (ms0_0 t) (hs0_0 t) ((hcond0_0 t).mpr h0) ((hcond0_1 t).mpr h1)
    · exfalso; omega
  · by_cases h1 : t.val < 7
    · rw [outsAt0_B m c t h0 h1]
      exact middle_point c t (V m c main_arg0) (V m c main_arg1) (ms0_0 t) (hs0_0 t) (fun h => h0 ((hcond0_0 t).mp h)) ((hcond0_1 t).mpr h1)
    · rw [outsAt0_C m c t h0 h1]
      exact last_point c t (V m c main_arg0) (V m c main_arg1) (ms0_0 t) (hs0_0 t) (fun h => h0 ((hcond0_0 t).mp h))
        (fun h => h1 ((hcond0_1 t).mp h))

end Cert.Proof.BodyBlock

end
-- ==== Proof.ResultArray.lean ====
/-
  The kernel's result array is the plane. The output's eight blocks are the bands of rows `512 t … 512 t + 511`, all
  columns; block `t` keeps `(r, q)` at `(512 t + r, q)`. At `(r, q)` the body stored image `(512 t + r, q, 0)` times
  weights `(512 t + r, q, 15)`, which is the plane at `(512 t + r, q)`: so what point `t` writes back is the plane
  read through block `t`. The bands cover the array (row `i` lies in band `i / 512`), and an array all of whose blocks
  hold a function's restrictions holds the function.
-/
import proofs.«146540_j6073083757041_2_alg».proof.Proof.BodyBlock
import proofs.«146540_j6073083757041_2_alg».proof.Proof.Plane
import proofs.«146540_j6073083757041_2_alg».proof.Proof.Gen.KernelIdeal.Value

set_option maxRecDepth 16384

noncomputable section

namespace Cert.Proof.ResultArray

open Cert.KernelIdeal Cert.KernelIdeal.Gen Cert.Proof.RingRead Cert.Proof.BodyBlock Cert.Proof.Plane
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The plane of the argument arrays as launched, image times weight. -/
abbrev plane (c : Dev nD) : Buf (Elt F) ((c : Thread nD τ).loc main_v0) :=
  imageByWeight (m ((c : Thread nD τ).loc main_arg0)) (m ((c : Thread nD τ).loc main_arg1))

/-- The output's index map over the eight points: block `t` is row band `t`, the one column band. -/
theorem band_of_point : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- What point `t` writes back is the plane read through block `t`. -/
theorem flushed_eq (c : Dev nD) (t : Fin cfg0.N) :
    (dats m 0 c).flushed 0 t = ((cfg0.win 0).blk t).view.read (Elt F) (plane m c) := by
  rw [Cert.KernelIdeal.Value.flushed0, outsAt_eq]
  obtain ⟨o0, o1⟩ := band_of_point t
  have hN : t.val < 8 := lt_of_lt_of_eq t.isLt (show cfg0.N = 8 from N_0)
  have hb : (Ring.bk 8 t.val).val = t.val := Ring.bk_val hN
  funext x
  show stored c t (V m c main_arg0) (V m c main_arg1) ((cfg0.win 0).xinj (grid0.coords t) x)
    = FloatOps.mulf
        (m ((c : Thread nD τ).loc main_arg0)
          (inFirst ((((cfg0.win 0).blk t).view.emb x) (0 : Fin 2)) ((((cfg0.win 0).blk t).view.emb x) (1 : Fin 2))))
        (m ((c : Thread nD τ).loc main_arg1)
          (inLast ((((cfg0.win 0).blk t).view.emb x) (0 : Fin 2)) ((((cfg0.win 0).blk t).view.emb x) (1 : Fin 2))))
  rw [stored_apply]
  -- the image's block t and the result's block t place (r, q) on the same row and column, at channel 0
  have e0 : (srcB0_0 (Ring.bk 8 t.val)).view.emb ((cfg0.win 0).xinj (grid0.coords t) x)
      = inFirst ((((cfg0.win 0).blk t).view.emb x) (0 : Fin 2)) ((((cfg0.win 0).blk t).view.emb x) (1 : Fin 2)) := by
    funext a
    apply Fin.ext
    refine (image_block_at (Ring.bk 8 t.val) ((cfg0.win 0).xinj (grid0.coords t) x) a).trans ?_
    match a with
    | ⟨0, _⟩ =>
      show 512 * (Ring.bk 8 t.val).val + (x 0).val = win0_0.index t (0 : Fin 2) * 512 + 1 * (x 0).val
      rw [hb, o0]; omega
    | ⟨1, _⟩ =>
      show 0 + (x 1).val = win0_0.index t (1 : Fin 2) * 4096 + 1 * (x 1).val
      rw [o1]; omega
    | ⟨2, _⟩ => rfl
  -- the weights' block t likewise, at channel 15
  have e1 : (srcB0_1 (Ring.bk 8 t.val)).view.emb ((cfg0.win 0).xinj (grid0.coords t) x)
      = inLast ((((cfg0.win 0).blk t).view.emb x) (0 : Fin 2)) ((((cfg0.win 0).blk t).view.emb x) (1 : Fin 2)) := by
    funext a
    apply Fin.ext
    refine (weight_block_at (Ring.bk 8 t.val) ((cfg0.win 0).xinj (grid0.coords t) x) a).trans ?_
    match a with
    | ⟨0, _⟩ =>
      show 512 * (Ring.bk 8 t.val).val + (x 0).val = win0_0.index t (0 : Fin 2) * 512 + 1 * (x 0).val
      rw [hb, o0]; omega
    | ⟨1, _⟩ =>
      show 0 + (x 1).val = win0_0.index t (1 : Fin 2) * 4096 + 1 * (x 1).val
      rw [o1]; omega
    | ⟨2, _⟩ => rfl
  rw [e0, e1]

/-- A position of the array is in block `t` iff each coordinate is in the block's range on its axis. -/
theorem mem_band (t : Fin cfg0.N) (i : S4096x4096.Idx) :
    i ∈ ((cfg0.win 0).blk t).view.set ↔ ∀ a : Fin 2, win0_0.index t a * S512x4096.size a ≤ (i a).val
      ∧ (i a).val < win0_0.index t a * S512x4096.size a + S512x4096.size a := by
  show i ∈ ((View.whole main_v0).slice (win0_0.rect t)).set ↔ _
  rw [View.set_slice_whole, Rect.mem_set_unit]
  exact Iff.rfl

/-- Every position lies in a band: row `i` in band `i / 512`. -/
theorem bands_cover (i : S4096x4096.Idx) :
    ∃ t : Fin cfg0.N, (cfg0.win 0).flush t = true ∧ i ∈ ((cfg0.win 0).blk t).view.set := by
  have h0 : (i 0).val < 4096 := (i 0).isLt
  have h1 : (i 1).val < 4096 := (i 1).isLt
  have ht : (i 0).val / 512 < cfg0.N := by rw [show cfg0.N = 8 from N_0]; omega
  obtain ⟨o0, o1⟩ := band_of_point ⟨(i 0).val / 512, ht⟩
  have o0' : win0_0.index ⟨(i 0).val / 512, ht⟩ (0 : Fin 2) = (i 0).val / 512 := o0
  refine ⟨⟨(i 0).val / 512, ht⟩, flush0_0 _, ?_⟩
  rw [mem_band]
  intro a
  match a with
  | ⟨0, _⟩ =>
    show win0_0.index ⟨(i 0).val / 512, ht⟩ (0 : Fin 2) * 512 ≤ (i 0).val
      ∧ (i 0).val < win0_0.index ⟨(i 0).val / 512, ht⟩ (0 : Fin 2) * 512 + 512
    rw [o0']; omega
  | ⟨1, _⟩ =>
    show win0_0.index ⟨(i 0).val / 512, ht⟩ (1 : Fin 2) * 4096 ≤ (i 1).val
      ∧ (i 1).val < win0_0.index ⟨(i 0).val / 512, ht⟩ (1 : Fin 2) * 4096 + 4096
    rw [o1]; omega

/-- The result array after the run is the plane. -/
theorem result_eq (c : Dev nD) : (dats m 0 c).arrAt 0 cfg0.N = plane m c :=
  (dats m 0 c).arrAt_eq_of_cover 0 (plane m c) (fun t _ => flushed_eq m c t) bands_cover

/-- The kernel's run with its result named: the plane of the arguments, the arguments unchanged. -/
theorem run : θ_run defs (onTc (τ := τ) (main (F := F))) ⟨m, fun _ => 0, ρ⟩ fun r => ∀ c : Dev nD,
      r.2.mem ((c : Thread nD τ).loc main_v0) = plane m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩)
    (Cert.KernelIdeal.Value.run_blocks m ρ)

end Cert.Proof.ResultArray

end
-- ==== Proof.lean ====
/-
  The kernel multiplies the image's first channel by the weights' last channel, entry by entry, over a `[4096, 4096]`
  plane; the reference multiplies the same two channels in the other order. The kernel leaves both arrays in HBM and
  streams them itself: eight bands of 512 rows, each band of each channel copied into one of two scratch slots a step
  ahead of the band being multiplied, the product stored into the output's band.

  * The three frames. The kernel's two (as printed, and idealized) are the generated frame certificates, which carry
    the two transfer rings through the eight points. The reference is five host operations; its frame is its generated
    run with the result forgotten.
  * The idealization rewrote nothing, so there is nothing to preserve.
  * The values. What the body stores at point `t` is, at `(r, q)`, image `(512 t + r, q, 0)` times weights
    `(512 t + r, q, 15)` (Proof/RingRead.lean: what a load of a slot's row reads, and where a block of a channel sits
    in its array; Proof/BodyBlock.lean: the three cases of the body store the same block). That is the plane
    `image · weight` read through the output's band `t`, and the bands cover the array (Proof/ResultArray.lean). The
    reference's result is the plane `weight · image` (Proof/RefPlane.lean). On the extended reals the two planes are
    equal because multiplication commutes at every pair of values (Proof/Plane.lean); the inputs' finiteness is not used.
-/
import proofs.«146540_j6073083757041_2_alg».proof.Defs
import proofs.«146540_j6073083757041_2_alg».proof.Proof.Gen.Kernel
import proofs.«146540_j6073083757041_2_alg».proof.Proof.Gen.Kernel.Skeleton
import proofs.«146540_j6073083757041_2_alg».proof.Proof.Gen.Kernel.Launch
import proofs.«146540_j6073083757041_2_alg».proof.Proof.Gen.Kernel.Points
import proofs.«146540_j6073083757041_2_alg».proof.Proof.Gen.Kernel.Frame
import proofs.«146540_j6073083757041_2_alg».proof.Proof.Gen.KernelIdeal
import proofs.«146540_j6073083757041_2_alg».proof.Proof.Gen.KernelIdeal.Skeleton
import proofs.«146540_j6073083757041_2_alg».proof.Proof.Gen.KernelIdeal.Launch
import proofs.«146540_j6073083757041_2_alg».proof.Proof.Gen.KernelIdeal.Points
import proofs.«146540_j6073083757041_2_alg».proof.Proof.Gen.KernelIdeal.Frame
import proofs.«146540_j6073083757041_2_alg».proof.Proof.Gen.ReferenceIdeal
import proofs.«146540_j6073083757041_2_alg».proof.Proof.Gen.KernelIdeal.Value
import proofs.«146540_j6073083757041_2_alg».proof.Proof.Gen.ReferenceIdeal.Run
import proofs.«146540_j6073083757041_2_alg».proof.Proof.Gen.ReferenceIdeal.Read
import proofs.«146540_j6073083757041_2_alg».proof.Proof.Gen.Pre_finite_inputs
import proofs.«146540_j6073083757041_2_alg».proof.Proof.Plane
import proofs.«146540_j6073083757041_2_alg».proof.Proof.RefPlane
import proofs.«146540_j6073083757041_2_alg».proof.Proof.ResultArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's five host operations run and write only their own results. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- Both programs end with the plane `image · weight` of the shared arguments: the kernel by its eight bands, the
    reference as `weight · image`, which is the same plane since multiplication of extended reals commutes. -/
theorem algebraic : Cert.algebraic_KernelIdeal_ReferenceIdeal := by
  intro m ρ m' ρ' _ hagree
  refine ⟨fun c => ResultArray.plane m c, ResultArray.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, RefPlane.result_eq, Plane.weightByImage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
